-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096 .f32) (main_arg3 : FVec F S16x4096 .f32) (main_arg4 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S8192x4096 : Shape := ⟨2, ![8192, 4096]⟩
abbrev S8192x16 : Shape := ⟨2, ![8192, 16]⟩
abbrev S1x4096 : Shape := ⟨2, ![1, 4096]⟩
abbrev S1024x1024 : Shape := ⟨2, ![1024, 1024]⟩
abbrev S2048x1024 : Shape := ⟨2, ![2048, 1024]⟩
abbrev S1024x16 : Shape := ⟨2, ![1024, 16]⟩
abbrev S2048x16 : Shape := ⟨2, ![2048, 16]⟩
abbrev S1x2048 : Shape := ⟨2, ![1, 2048]⟩
abbrev S1024x2048 : Shape := ⟨2, ![1024, 2048]⟩

abbrev nBuf : Space → Nat
  | .hbm => 14
  | .vmem => 12
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S8192x4096, .f32⟩
  | .hbm, ⟨6, _⟩ => ⟨S8192x16, .f32⟩
  | .hbm, ⟨7, _⟩ => ⟨S8192x4096, .bf16⟩
  | .hbm, ⟨8, _⟩ => ⟨S4096x4096, .bf16⟩
  | .hbm, ⟨9, _⟩ => ⟨S4096x16, .bf16⟩
  | .hbm, ⟨10, _⟩ => ⟨S8192x16, .bf16⟩
  | .hbm, ⟨11, _⟩ => ⟨S1x4096, .f32⟩
  | .hbm, ⟨12, _⟩ => ⟨S8192x4096, .f32⟩
  | .hbm, ⟨13, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x16, .bf16⟩
  | .local _ .vmem, ⟨5, _⟩ => ⟨S1024x16, .bf16⟩
  | .local _ .vmem, ⟨6, _⟩ => ⟨S2048x16, .bf16⟩
  | .local _ .vmem, ⟨7, _⟩ => ⟨S2048x16, .bf16⟩
  | .local _ .vmem, ⟨8, _⟩ => ⟨S1x2048, .f32⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S2048x16 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x2048x4096_S8192x4096 : S4x2048x4096.ShapeCasts S8192x4096
  bitsLt_bf16_f32 : FTy.bits .bf16 < FTy.bits .f32
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  shapeCasts_S1024x2048_S1024x2048 : S1024x2048.ShapeCasts S1024x2048
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S8192x4096_S4x2048x4096 : S8192x4096.ShapeCasts S4x2048x4096
  dot_S8192x4096_S16x4096_S8192x16_1_1_0_0_n_n_wf : DotDims.WF S8192x4096 S16x4096 S8192x16 [1] [1] [0] [0] [] []
  dot_S1024x1024_S2048x1024_S1024x2048_1_1_0_0_n_n_wf : DotDims.WF S1024x1024 S2048x1024 S1024x2048 [1] [1] [0] [0] [] []
  dot_S1024x16_S2048x16_S1024x2048_1_1_0_0_n_n_wf : DotDims.WF S1024x16 S2048x16 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S4096x4096.size a
  hwx0_1 : ∀ i : grid0.Coords, EltTy.bits .bf16 = 32 ∨ (Rect.block (s := S4096x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S8192x16.size a
  hwx0_2 : ∀ i : grid0.Coords, EltTy.bits .bf16 = 32 ∨ (Rect.block (s := S8192x16) S1024x16.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x16.size a ≤ S4096x16.size a
  hwx0_3 : ∀ i : grid0.Coords, EltTy.bits .bf16 = 32 ∨ (Rect.block (s := S4096x16) S2048x16.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x4096.size a
  hwx0_4 : ∀ i : grid0.Coords, EltTy.bits .f32 = 32 ∨ (Rect.block (s := S1x4096) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S8192x4096.size a
  hwx0_5 : ∀ i : grid0.Coords, EltTy.bits .f32 = 32 ∨ (Rect.block (s := S8192x4096) S1024x2048.size (cc0_transform_5 i) (hinb0_5 i)).WholeWords (EltTy.packing .f32)

variable [Facts₀]

def dot_S8192x4096_S16x4096_S8192x16_1_1_0_0_n_n : DotDims S8192x4096 S16x4096 S8192x16 where
  lhsContracting := [1]
  rhsContracting := [1]
  lhsNonContracting := [0]
  rhsNonContracting := [0]
  lhsBatch := []
  rhsBatch := []
  wf := dot_S8192x4096_S16x4096_S8192x16_1_1_0_0_n_n_wf
def dot_S1024x1024_S2048x1024_S1024x2048_1_1_0_0_n_n : DotDims S1024x1024 S2048x1024 S1024x2048 where
  lhsContracting := [1]
  rhsContracting := [1]
  lhsNonContracting := [0]
  rhsNonContracting := [0]
  lhsBatch := []
  rhsBatch := []
  wf := dot_S1024x1024_S2048x1024_S1024x2048_1_1_0_0_n_n_wf
def dot_S1024x16_S2048x16_S1024x2048_1_1_0_0_n_n : DotDims S1024x16 S2048x16 S1024x2048 where
  lhsContracting := [1]
  rhsContracting := [1]
  lhsNonContracting := [0]
  rhsNonContracting := [0]
  lhsBatch := []
  rhsBatch := []
  wf := dot_S1024x16_S2048x16_S1024x2048_1_1_0_0_n_n_wf

abbrev win0_0 : Pipeline.Window sig grid0 :=
  Pipeline.Window.ofSpec (Memref.whole main_v2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1024x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x1x4096 : Shape := ⟨3, ![1, 1, 4096]⟩
abbrev S4x2048x16 : Shape := ⟨3, ![4, 2048, 16]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4x2048x4096, .f32⟩
  | .hbm, ⟨6, _⟩ => ⟨S1x1x4096, .f32⟩
  | .hbm, ⟨7, _⟩ => ⟨S4x2048x4096, .f32⟩
  | .hbm, ⟨8, _⟩ => ⟨S4x2048x4096, .f32⟩
  | .hbm, ⟨9, _⟩ => ⟨S4x2048x16, .f32⟩
  | .hbm, ⟨10, _⟩ => ⟨S4x2048x4096, .f32⟩
  | .hbm, ⟨11, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.CaseValue.lean ====
/-
  What each of the body's three control cases leaves in the output block, as the stored values of the body.

  The grid's last axis walks the four column blocks of one row-by-row product. At its first point the body
  resets the output block and then accumulates into it; at the two middle points it only accumulates; at the
  last point it accumulates and then closes (adds the low-rank product and the bias row). Each case's final
  store covers the whole block, and what it stores is read from whole buffers, so what the block holds
  afterwards is that store's value: the accumulating step applied to the reset value, to what the block held,
  or -- at the last point -- the closing step applied to the accumulating step of what the block held.
  Nothing here depends on how floats are interpreted.
-/
import proofs.«179515_j63196148793993_2_alg».proof.Proof.Gen.KernelIdeal.Frame
import Idealize.ShloMosaic.Lib.Pipeline.Value
import Idealize.ShloMosaic.Lib.Tactic

set_option maxRecDepth 16384

noncomputable section

namespace Cert.KernelIdeal.CaseValue

open Idealize.ShloMosaic Idealize.ShloMosaic.TcCoe Idealize.SL.Sem Cert.KernelIdeal Cert.KernelIdeal.Gen

variable {F : FTy → Type} [FloatOps F]

theorem hz : (![0, 0] : Fin 2 → Nat) = fun _ => 0 := funext fun a => by fin_cases a <;> rfl

/-- A middle point: the block ends holding the accumulating step of what it held. -/
theorem middle (c : Dev nD) (i : grid0.Coords) (arg3 : Memref sig .tc .vmem S1024x1024 .bf16) (harg3 : arg3.IsWhole) (arg4 : Memref sig .tc .vmem S2048x1024 .bf16) (harg4 : arg4.IsWhole) (arg5 : Memref sig .tc .vmem S1024x16 .bf16) (harg5 : arg5.IsWhole) (arg6 : Memref sig .tc .vmem S2048x16 .bf16) (harg6 : arg6.IsWhole) (arg7 : Memref sig .tc .vmem S1x2048 .f32) (harg7 : arg7.IsWhole) (arg8 : Memref sig .tc .vmem S1024x2048 .f32) (harg8 : arg8.IsWhole) (hc0 : ¬cond0_0 i) (hc1 : ¬cond0_1 i)
    (x0 : Vec F S1024x1024 .bf16) (x1 : Vec F S2048x1024 .bf16) (x2 : Vec F S1024x16 .bf16) (x3 : Vec F S2048x16 .bf16) (x4 : Vec F S1x2048 .f32) (xo5 : Vec F S1024x2048 .f32) :
    out0_B_5 c i arg3 harg3 arg4 harg4 arg5 harg5 arg6 harg6 arg7 harg7 arg8 harg8 hc0 hc1 x0 x1 x2 x3 x4 xo5 = k0_pay2 x0 x1 xo5 := by
  unfold out0_B_5
  rw [View.read_writes_eq_canon _ _ _ (cover0_B_5 c i arg3 harg3 arg4 harg4 arg5 harg5 arg6 harg6 arg7 harg7 arg8 harg8 hc0 hc1 x0 x1 x2 x3 x4 xo5)]
  unfold kernelRun0_B
  dsimp only
  rw [View.canon_unit_zero hz]
  simp only [View.readAt_eq_ld, harg3.read_unread, harg4.read_unread, harg8.read_unread,
    View.ld_unit_zero (S := S1024x1024) hz, View.ld_unit_zero (S := S2048x1024) hz, View.ld_unit_zero (S := S1024x2048) hz]

/-- The first point of a run: the block is reset, read back, and ends holding the accumulating step of the reset
    value. -/
theorem first (c : Dev nD) (i : grid0.Coords) (arg3 : Memref sig .tc .vmem S1024x1024 .bf16) (harg3 : arg3.IsWhole) (arg4 : Memref sig .tc .vmem S2048x1024 .bf16) (harg4 : arg4.IsWhole) (arg5 : Memref sig .tc .vmem S1024x16 .bf16) (harg5 : arg5.IsWhole) (arg6 : Memref sig .tc .vmem S2048x16 .bf16) (harg6 : arg6.IsWhole) (arg7 : Memref sig .tc .vmem S1x2048 .f32) (harg7 : arg7.IsWhole) (arg8 : Memref sig .tc .vmem S1024x2048 .f32) (harg8 : arg8.IsWhole) (hc0 : cond0_0 i) (hc1 : ¬cond0_1 i)
    (x0 : Vec F S1024x1024 .bf16) (x1 : Vec F S2048x1024 .bf16) (x2 : Vec F S1024x16 .bf16) (x3 : Vec F S2048x16 .bf16) (x4 : Vec F S1x2048 .f32) :
    out0_A_5 c i arg3 harg3 arg4 harg4 arg5 harg5 arg6 harg6 arg7 harg7 arg8 harg8 hc0 hc1 x0 x1 x2 x3 x4 = k0_pay2 x0 x1 (k0_pay1 (F := F)) := by
  unfold out0_A_5
  rw [View.read_writes_eq_canon _ _ _ (cover0_A_5 c i arg3 harg3 arg4 harg4 arg5 harg5 arg6 harg6 arg7 harg7 arg8 harg8 hc0 hc1 x0 x1 x2 x3 x4)]
  unfold kernelRun0_A
  dsimp only
  sl_unfold_words
  rw [View.canon_cons_unit_zero (S := S1024x2048) hz, View.readCov_unit_zero (S := S1024x2048) _ hz]
  simp only [View.readAt_eq_ld, harg3.read_unread, harg4.read_unread,
    View.ld_unit_zero (S := S1024x1024) hz, View.ld_unit_zero (S := S2048x1024) hz, View.ld_unit_zero (S := S1024x2048) hz]

/-- The last point of a run: the block ends holding the closing step of the accumulating step of what it held. -/
theorem last (c : Dev nD) (i : grid0.Coords) (arg3 : Memref sig .tc .vmem S1024x1024 .bf16) (harg3 : arg3.IsWhole) (arg4 : Memref sig .tc .vmem S2048x1024 .bf16) (harg4 : arg4.IsWhole) (arg5 : Memref sig .tc .vmem S1024x16 .bf16) (harg5 : arg5.IsWhole) (arg6 : Memref sig .tc .vmem S2048x16 .bf16) (harg6 : arg6.IsWhole) (arg7 : Memref sig .tc .vmem S1x2048 .f32) (harg7 : arg7.IsWhole) (arg8 : Memref sig .tc .vmem S1024x2048 .f32) (harg8 : arg8.IsWhole) (hc0 : ¬cond0_0 i) (hc1 : cond0_1 i)
    (x0 : Vec F S1024x1024 .bf16) (x1 : Vec F S2048x1024 .bf16) (x2 : Vec F S1024x16 .bf16) (x3 : Vec F S2048x16 .bf16) (x4 : Vec F S1x2048 .f32) (xo5 : Vec F S1024x2048 .f32) :
    out0_C_5 c i arg3 harg3 arg4 harg4 arg5 harg5 arg6 harg6 arg7 harg7 arg8 harg8 hc0 hc1 x0 x1 x2 x3 x4 xo5 = k0_pay3 x2 x3 (k0_pay2 x0 x1 xo5) x4 := by
  unfold out0_C_5
  rw [View.read_writes_eq_canon _ _ _ (cover0_C_5 c i arg3 harg3 arg4 harg4 arg5 harg5 arg6 harg6 arg7 harg7 arg8 harg8 hc0 hc1 x0 x1 x2 x3 x4 xo5)]
  unfold kernelRun0_C
  dsimp only
  sl_unfold_words
  rw [View.canon_cons_unit_zero (S := S1024x2048) hz, View.readCov_unit_zero (S := S1024x2048) _ hz]
  simp only [View.readAt_eq_ld, harg3.read_unread, harg4.read_unread, harg5.read_unread, harg6.read_unread,
    harg7.read_unread, harg8.read_unread,
    View.ld_unit_zero (S := S1024x1024) hz, View.ld_unit_zero (S := S2048x1024) hz, View.ld_unit_zero (S := S1024x16) hz,
    View.ld_unit_zero (S := S2048x16) hz, View.ld_unit_zero (S := S1x2048) hz, View.ld_unit_zero (S := S1024x2048) hz]

end Cert.KernelIdeal.CaseValue

end
-- ==== Proof.LibRowsDot.lean ====
/-
  A matrix product with the right operand given by rows.

  For a left operand of M rows by K columns and a right operand of N rows by K columns, contracted along the
  column axis of both (no batch axis), the product has entry (p, q) equal to the dot product of row p of the left
  with row q of the right:  Σ_k l[p, k] · r[q, k].  Over the extended reals the matrix unit's product into a zero
  accumulator is exactly this finite sum: no rounding, and no order of accumulation to speak of.
-/
import Idealize.ShloMosaic.Lib.ValueIdx
import Idealize.ShloMosaic.PureOps.Ideal.Laws

noncomputable section

namespace Cert.Lib

open Idealize.ShloMosaic Idealize.ShloMosaic.ValueIdx

variable {M K N : Nat}

/-- The left operand's row coordinate is the result's row. -/
theorem rowsDot_lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column coordinate is the contraction position. -/
theorem rowsDot_lhs_col (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single rfl j k

/-- The right operand's row coordinate is the result's column. -/
theorem rowsDot_rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column coordinate is the contraction position. -/
theorem rowsDot_rhs_col (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single rfl j k

/-- The contraction sum of a rows-by-rows product, re-indexed by the column position k < K. -/
theorem rowsDot_contr_sum (l : (⟨2, ![M, K]⟩ : Shape).Idx → EReal) (r : (⟨2, ![N, K]⟩ : Shape).Idx → EReal) (p : Fin M) (q : Fin N) :
    (∑ k : (DotDims.transposedRhs M K N).contr.Idx,
        l ((DotDims.transposedRhs M K N).lhsIdx (ix2 p q) k) * r ((DotDims.transposedRhs M K N).rhsIdx (ix2 p q) k))
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact rowsDot_lhs_row _ _
      | ⟨1, _⟩ => exact (rowsDot_lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rowsDot_rhs_row _ _
      | ⟨1, _⟩ => exact (rowsDot_rhs_col _ _).trans hk)
  rw [el, er]

/-- The matrix unit's rows-by-rows product into the zero accumulator, read at (p, q): Σ_k l[p, k] · r[q, k]. -/
theorem matmul_rowsDot_zero_apply {φ₁ φ₂ : FTy} (prec : Option ContractPrecision)
    (l : FVec Ideal ⟨2, ![M, K]⟩ φ₁) (r : FVec Ideal ⟨2, ![N, K]⟩ φ₂) (p : Fin M) (q : Fin N) :
    FloatOps.matmul (DotDims.transposedRhs M K N) prec l r (constant ⟨2, ![M, N]⟩ .f32 0x00000000#32) (ix2 p q)
      = ∑ k : Fin K, l (ix2 p k) * r (ix2 q k) := by
  rw [Ideal.matmul_constant_zero_apply]
  exact rowsDot_contr_sum l r p q

/-- The host's dot_general with the same dimension numbers, read at (p, q): the same sum. -/
theorem dotGeneral_rowsDot_apply {φ₁ φ₂ : FTy} (prec : Option ContractPrecision) (sched : HostSchedule)
    (l : FVec Ideal ⟨2, ![M, K]⟩ φ₁) (r : FVec Ideal ⟨2, ![N, K]⟩ φ₂) (p : Fin M) (q : Fin N) :
    FloatOps.dotGeneral (DotDims.transposedRhs M K N) prec sched l r (ix2 p q) = ∑ k : Fin K, l (ix2 p k) * r (ix2 q k) := by
  rw [Ideal.dotGeneral_apply]
  exact rowsDot_contr_sum l r p q

end Cert.Lib

end
-- ==== Proof.StepValue.lean ====
/-
  The three values the kernel body stores into its output block, each read at one entry (p, q) of the
  1024 x 2048 block, over the extended reals.

  * the reset value: every entry is 0;
  * the accumulating step: the entry the block already holds plus the dot product of row p of the left
    block (1024 x 1024) with row q of the right block (2048 x 1024) -- the matrix unit's product into a zero
    accumulator is exactly that finite sum, and a change of float format is the identity;
  * the closing step: the entry the block already holds, plus the dot product of row p of the low-rank left
    factor (1024 x 16) with row q of the low-rank right factor (2048 x 16), plus entry q of the bias row.
-/
import proofs.«179515_j63196148793993_2_alg».proof.Proof.Gen.KernelIdeal.Skeleton
import proofs.«179515_j63196148793993_2_alg».proof.Proof.LibRowsDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.StepValue

open Idealize.ShloMosaic Idealize.ShloMosaic.ValueIdx Cert.KernelIdeal Cert.KernelIdeal.Gen

/-- The printed contraction of the main product is "rows of the left by rows of the right". -/
theorem mainDims : dot_S1024x1024_S2048x1024_S1024x2048_1_1_0_0_n_n = DotDims.transposedRhs 1024 1024 2048 := rfl

/-- So is the low-rank one. -/
theorem lowRankDims : dot_S1024x16_S2048x16_S1024x2048_1_1_0_0_n_n = DotDims.transposedRhs 1024 16 2048 := rfl

/-- The reset value is 0 at every entry. -/
theorem reset_apply (y : S1024x2048.Idx) : k0_pay1 (F := Ideal) y = 0 := by
  unfold k0_pay1
  exact Ideal.ofBits_zero_f32

/-- The accumulating step at entry (p, q): what the block held there plus row p of the left block dotted with row q
    of the right block. -/
theorem accumulate_apply (x0 : Vec Ideal S1024x1024 .bf16) (x1 : Vec Ideal S2048x1024 .bf16)
    (acc : Vec Ideal S1024x2048 .f32) (p : Fin 1024) (q : Fin 2048) :
    k0_pay2 x0 x1 acc (ix2 p q) = acc (ix2 p q) + ∑ l : Fin 1024, x0 (ix2 p l) * x1 (ix2 q l) := by
  unfold k0_pay2
  simp only [shapeCast_self]
  refine congrArg (acc (ix2 p q) + ·) ?_
  exact Cert.Lib.matmul_rowsDot_zero_apply (M := 1024) (K := 1024) (N := 2048) none x0 x1 p q

/-- The closing step at entry (p, q): what the block held there, plus row p of the low-rank left factor dotted with
    row q of the low-rank right factor, plus entry q of the one bias row (the row is repeated down the block). -/
theorem close_apply (x2 : Vec Ideal S1024x16 .bf16) (x3 : Vec Ideal S2048x16 .bf16)
    (acc : Vec Ideal S1024x2048 .f32) (x4 : Vec Ideal S1x2048 .f32) (p : Fin 1024) (q : Fin 2048) :
    k0_pay3 x2 x3 acc x4 (ix2 p q)
      = (acc (ix2 p q) + ∑ j : Fin 16, x2 (ix2 p j) * x3 (ix2 q j)) + x4 (ix2 (0 : Fin 1) q) := by
  unfold k0_pay3
  simp only [shapeCast_self]
  refine congrArg₂ (· + ·) (congrArg (acc (ix2 p q) + ·) ?_) ?_
  · exact Cert.Lib.matmul_rowsDot_zero_apply (M := 1024) (K := 16) (N := 2048) none x2 x3 p q
  · exact broadcastTo_1b_ab_apply (a := 1024) (b := 2048) x4 broadcasts_S1x2048_S1024x2048 p q

end Cert.KernelIdeal.StepValue

end
-- ==== Proof.LibLayoutReads.lean ====
/-
  Arrays laid side by side, cut, and re-shaped, read at an index given by coordinates.

  Three matrices with the same number of rows laid side by side form one wide matrix: column c of the wide matrix is
  column c of the first piece while c is below the first piece's width, then column c − n0 of the second, then column
  c − n0 − n1 of the third.  Three vectors laid end to end behave the same way along their one axis.

  A stack of P matrices of S rows each is, row-major, one matrix of P·S rows: row p·S + s of the flat matrix is row s of
  matrix p, in both directions of the re-shaping.  A cut along the last axis of a rank-3 array starting at column o reads
  column o + j of the source at column j.  A matrix (or a vector) that was padded only at the high end of its last axis
  still reads the original entries at the original coordinates.
-/
import Idealize.ShloMosaic.Lib.ValueIdx
import Idealize.ShloMosaic.Lib.ValueLayout
import Idealize.ShloMosaic.Lib.Pipeline.Value
import Idealize.ShloMosaic.Lib.KernelVsHost

namespace Cert.Lib

open Idealize.ShloMosaic Idealize.ShloMosaic.ValueIdx

variable {α : Type}

/-! ## Three matrices side by side -/

/-- The wide matrix at a column of the first piece. -/
theorem concat3_cols_fst {A n0 n1 n2 N : Nat} (x0 : (⟨2, ![A, n0]⟩ : Shape).Idx → α) (x1 : (⟨2, ![A, n1]⟩ : Shape).Idx → α)
    (x2 : (⟨2, ![A, n2]⟩ : Shape).Idx → α)
    (h : Shape.Concatenates [(⟨2, ![A, n0]⟩ : Shape), ⟨2, ![A, n1]⟩, ⟨2, ![A, n2]⟩] ⟨2, ![A, N]⟩ 1)
    (d : Fin A) (q : Fin n0) (c : Fin N) (hc : c.val = q.val) :
    concatenate ⟨2, ![A, N]⟩ 1 [⟨⟨2, ![A, n0]⟩, x0⟩, ⟨⟨2, ![A, n1]⟩, x1⟩, ⟨⟨2, ![A, n2]⟩, x2⟩] h (ix2 d c) = x0 (ix2 d q) :=
  concatenate_apply_piece (t := ⟨2, ![A, N]⟩) (1 : Fin 2) [⟨⟨2, ![A, n0]⟩, x0⟩, ⟨⟨2, ![A, n1]⟩, x1⟩, ⟨⟨2, ![A, n2]⟩, x2⟩] h (ix2 d c) 0 (by simp) ⟨2, ![A, n0]⟩ x0 rfl rfl 0 rfl (ix2 d q)
    (fun b => match b with
      | ⟨0, _⟩ => fun _ => rfl
      | ⟨1, _⟩ => fun hb => absurd rfl hb)
    (by show 0 + q.val = c.val; omega)

/-- The wide matrix at a column of the second piece. -/
theorem concat3_cols_snd {A n0 n1 n2 N : Nat} (x0 : (⟨2, ![A, n0]⟩ : Shape).Idx → α) (x1 : (⟨2, ![A, n1]⟩ : Shape).Idx → α)
    (x2 : (⟨2, ![A, n2]⟩ : Shape).Idx → α)
    (h : Shape.Concatenates [(⟨2, ![A, n0]⟩ : Shape), ⟨2, ![A, n1]⟩, ⟨2, ![A, n2]⟩] ⟨2, ![A, N]⟩ 1)
    (d : Fin A) (q : Fin n1) (c : Fin N) (hc : c.val = n0 + q.val) :
    concatenate ⟨2, ![A, N]⟩ 1 [⟨⟨2, ![A, n0]⟩, x0⟩, ⟨⟨2, ![A, n1]⟩, x1⟩, ⟨⟨2, ![A, n2]⟩, x2⟩] h (ix2 d c) = x1 (ix2 d q) :=
  concatenate_apply_piece (t := ⟨2, ![A, N]⟩) (1 : Fin 2) [⟨⟨2, ![A, n0]⟩, x0⟩, ⟨⟨2, ![A, n1]⟩, x1⟩, ⟨⟨2, ![A, n2]⟩, x2⟩] h (ix2 d c) 1 (by simp) ⟨2, ![A, n1]⟩ x1 rfl rfl (n0 + 0) rfl (ix2 d q)
    (fun b => match b with
      | ⟨0, _⟩ => fun _ => rfl
      | ⟨1, _⟩ => fun hb => absurd rfl hb)
    (by show n0 + 0 + q.val = c.val; omega)

/-- The wide matrix at a column of the third piece. -/
theorem concat3_cols_thd {A n0 n1 n2 N : Nat} (x0 : (⟨2, ![A, n0]⟩ : Shape).Idx → α) (x1 : (⟨2, ![A, n1]⟩ : Shape).Idx → α)
    (x2 : (⟨2, ![A, n2]⟩ : Shape).Idx → α)
    (h : Shape.Concatenates [(⟨2, ![A, n0]⟩ : Shape), ⟨2, ![A, n1]⟩, ⟨2, ![A, n2]⟩] ⟨2, ![A, N]⟩ 1)
    (d : Fin A) (q : Fin n2) (c : Fin N) (hc : c.val = n0 + n1 + q.val) :
    concatenate ⟨2, ![A, N]⟩ 1 [⟨⟨2, ![A, n0]⟩, x0⟩, ⟨⟨2, ![A, n1]⟩, x1⟩, ⟨⟨2, ![A, n2]⟩, x2⟩] h (ix2 d c) = x2 (ix2 d q) :=
  concatenate_apply_piece (t := ⟨2, ![A, N]⟩) (1 : Fin 2) [⟨⟨2, ![A, n0]⟩, x0⟩, ⟨⟨2, ![A, n1]⟩, x1⟩, ⟨⟨2, ![A, n2]⟩, x2⟩] h (ix2 d c) 2 (by simp) ⟨2, ![A, n2]⟩ x2 rfl rfl (n0 + (n1 + 0)) rfl (ix2 d q)
    (fun b => match b with
      | ⟨0, _⟩ => fun _ => rfl
      | ⟨1, _⟩ => fun hb => absurd rfl hb)
    (by show n0 + (n1 + 0) + q.val = c.val; omega)

/-! ## Three vectors end to end -/

/-- The long vector at an entry of the first piece. -/
theorem concat3_vec_fst {n0 n1 n2 N : Nat} (x0 : (⟨1, ![n0]⟩ : Shape).Idx → α) (x1 : (⟨1, ![n1]⟩ : Shape).Idx → α)
    (x2 : (⟨1, ![n2]⟩ : Shape).Idx → α)
    (h : Shape.Concatenates [(⟨1, ![n0]⟩ : Shape), ⟨1, ![n1]⟩, ⟨1, ![n2]⟩] ⟨1, ![N]⟩ 0)
    (q : Fin n0) (c : Fin N) (hc : c.val = q.val) :
    concatenate ⟨1, ![N]⟩ 0 [⟨⟨1, ![n0]⟩, x0⟩, ⟨⟨1, ![n1]⟩, x1⟩, ⟨⟨1, ![n2]⟩, x2⟩] h (ix1 c) = x0 (ix1 q) :=
  concatenate_apply_piece (t := ⟨1, ![N]⟩) (0 : Fin 1) [⟨⟨1, ![n0]⟩, x0⟩, ⟨⟨1, ![n1]⟩, x1⟩, ⟨⟨1, ![n2]⟩, x2⟩] h (ix1 c) 0 (by simp) ⟨1, ![n0]⟩ x0 rfl rfl 0 rfl (ix1 q)
    (fun b => match b with
      | ⟨0, _⟩ => fun hb => absurd rfl hb)
    (by show 0 + q.val = c.val; omega)

/-- The long vector at an entry of the second piece. -/
theorem concat3_vec_snd {n0 n1 n2 N : Nat} (x0 : (⟨1, ![n0]⟩ : Shape).Idx → α) (x1 : (⟨1, ![n1]⟩ : Shape).Idx → α)
    (x2 : (⟨1, ![n2]⟩ : Shape).Idx → α)
    (h : Shape.Concatenates [(⟨1, ![n0]⟩ : Shape), ⟨1, ![n1]⟩, ⟨1, ![n2]⟩] ⟨1, ![N]⟩ 0)
    (q : Fin n1) (c : Fin N) (hc : c.val = n0 + q.val) :
    concatenate ⟨1, ![N]⟩ 0 [⟨⟨1, ![n0]⟩, x0⟩, ⟨⟨1, ![n1]⟩, x1⟩, ⟨⟨1, ![n2]⟩, x2⟩] h (ix1 c) = x1 (ix1 q) :=
  concatenate_apply_piece (t := ⟨1, ![N]⟩) (0 : Fin 1) [⟨⟨1, ![n0]⟩, x0⟩, ⟨⟨1, ![n1]⟩, x1⟩, ⟨⟨1, ![n2]⟩, x2⟩] h (ix1 c) 1 (by simp) ⟨1, ![n1]⟩ x1 rfl rfl (n0 + 0) rfl (ix1 q)
    (fun b => match b with
      | ⟨0, _⟩ => fun hb => absurd rfl hb)
    (by show n0 + 0 + q.val = c.val; omega)

/-- The long vector at an entry of the third piece. -/
theorem concat3_vec_thd {n0 n1 n2 N : Nat} (x0 : (⟨1, ![n0]⟩ : Shape).Idx → α) (x1 : (⟨1, ![n1]⟩ : Shape).Idx → α)
    (x2 : (⟨1, ![n2]⟩ : Shape).Idx → α)
    (h : Shape.Concatenates [(⟨1, ![n0]⟩ : Shape), ⟨1, ![n1]⟩, ⟨1, ![n2]⟩] ⟨1, ![N]⟩ 0)
    (q : Fin n2) (c : Fin N) (hc : c.val = n0 + n1 + q.val) :
    concatenate ⟨1, ![N]⟩ 0 [⟨⟨1, ![n0]⟩, x0⟩, ⟨⟨1, ![n1]⟩, x1⟩, ⟨⟨1, ![n2]⟩, x2⟩] h (ix1 c) = x2 (ix1 q) :=
  concatenate_apply_piece (t := ⟨1, ![N]⟩) (0 : Fin 1) [⟨⟨1, ![n0]⟩, x0⟩, ⟨⟨1, ![n1]⟩, x1⟩, ⟨⟨1, ![n2]⟩, x2⟩] h (ix1 c) 2 (by simp) ⟨1, ![n2]⟩ x2 rfl rfl (n0 + (n1 + 0)) rfl (ix1 q)
    (fun b => match b with
      | ⟨0, _⟩ => fun hb => absurd rfl hb)
    (by show n0 + (n1 + 0) + q.val = c.val; omega)

/-! ## Padding at the high end of the last axis, read inside the original -/

/-- A matrix padded with extra columns on the right reads its own entry at a column it already had. -/
theorem pad_cols_inside {A C C' hc : Nat} (x : (⟨2, ![A, C]⟩ : Shape).Idx → α) {u : Shape} (v : u.Idx → α)
    (h : (⟨2, ![A, C]⟩ : Shape).Pads ![0, 0] ![0, hc] ![0, 0] ⟨2, ![A, C']⟩) (hu : 0 < u.numel)
    (p : Fin A) (n : Fin C) (q : Fin C') (hq : q.val = n.val) :
    pad ⟨2, ![A, C']⟩ ![0, 0] ![0, hc] ![0, 0] x v h hu (ix2 p q) = x (ix2 p n) :=
  pad_apply_of_inside _ _ _ x v h hu (ix2 p q) (ix2 p n) fun a => by
    match a with
    | ⟨0, _⟩ => show p.val = 0 + p.val * (0 + 1); omega
    | ⟨1, _⟩ => show q.val = 0 + n.val * (0 + 1); omega

/-- A vector padded with extra entries at its end reads its own entry at a position it already had. -/
theorem pad_vec_inside {C C' hc : Nat} (x : (⟨1, ![C]⟩ : Shape).Idx → α) {u : Shape} (v : u.Idx → α)
    (h : (⟨1, ![C]⟩ : Shape).Pads ![0] ![hc] ![0] ⟨1, ![C']⟩) (hu : 0 < u.numel)
    (n : Fin C) (q : Fin C') (hq : q.val = n.val) :
    pad ⟨1, ![C']⟩ ![0] ![hc] ![0] x v h hu (ix1 q) = x (ix1 n) :=
  pad_apply_of_inside _ _ _ x v h hu (ix1 q) (ix1 n) fun a => by
    match a with
    | ⟨0, _⟩ => show q.val = 0 + n.val * (0 + 1); omega

/-! ## A stack of matrices and the one tall matrix with the same rows -/

/-- The stack `[P, S, K]` flattened to `[R, K]` reads, at row `r = p·S + s`, row `s` of matrix `p`. -/
theorem shapeCast_merge_rows_apply {P S K R : Nat} (x : (⟨3, ![P, S, K]⟩ : Shape).Idx → α)
    (h : (⟨3, ![P, S, K]⟩ : Shape).ShapeCasts ⟨2, ![R, K]⟩) (p : Fin P) (s : Fin S) (d : Fin K) (r : Fin R)
    (hr : r.val = p.val * S + s.val) :
    shapeCast ⟨2, ![R, K]⟩ x h (ix2 r d) = x (ix3 p s d) :=
  shapeCast_apply x h _ _ (by
    rw [Shape.rowMajor_val_three, Shape.rowMajor_val_two]
    show (p.val * S + s.val) * K + d.val = r.val * K + d.val
    rw [hr])

/-- The tall matrix `[R, C]` cut into a stack `[P, S, C]` reads, at row `s` of matrix `p`, its row `r = p·S + s`. -/
theorem shapeCast_split_rows_apply {P S C R : Nat} (x : (⟨2, ![R, C]⟩ : Shape).Idx → α)
    (h : (⟨2, ![R, C]⟩ : Shape).ShapeCasts ⟨3, ![P, S, C]⟩) (p : Fin P) (s : Fin S) (c : Fin C) (r : Fin R)
    (hr : r.val = p.val * S + s.val) :
    shapeCast ⟨3, ![P, S, C]⟩ x h (ix3 p s c) = x (ix2 r c) :=
  shapeCast_apply x h _ _ (by
    rw [Shape.rowMajor_val_two, Shape.rowMajor_val_three]
    show r.val * C + c.val = (p.val * S + s.val) * C + c.val
    rw [hr])

/-! ## A cut along the last axis of a rank-3 array -/

/-- A rank-3 array cut along its last axis from `o` reads, at `(a, b, j)`, the source at `(a, b, k)` with `k = o + j`. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

end Cert.Lib
-- ==== Proof.EntryArrays.lean ====
/-
  The arrays the kernel region finds, and the blocks its windows cut from them.

  Before the region the host flattens x from [4, 2048, 4096] to [8192, 4096] (row 2048*b + s of the flat array is row
  s of matrix b), multiplies the flat array by the low-rank factor A row-by-row to get a [8192, 16] array, views the
  bias vector as a single row [1, 4096], and changes the float format of four of these arrays -- which over the
  extended reals changes nothing.

  The grid has 8 * 2 * 4 = 64 points; point t has row-block t / 8, column-block (t / 4) mod 2 and contraction
  block t mod 4. At point t the five input windows hold:
    rows 1024*(t/8) .. of the flat x, columns 1024*(t mod 4) .. ;
    rows 2048*((t/4) mod 2) .. of W, the same columns;
    rows 1024*(t/8) .. of the [8192, 16] array, all 16 columns;
    rows 2048*((t/4) mod 2) .. of the low-rank factor B, all 16 columns;
    the one bias row, columns 2048*((t/4) mod 2) .. .
  The two large arrays are also given as total functions of natural-number coordinates (0 outside the array), so that
  sums over several points can be re-indexed by plain arithmetic.
-/
import proofs.«179515_j63196148793993_2_alg».proof.Proof.Gen.KernelIdeal.Frame
import proofs.«179515_j63196148793993_2_alg».proof.Proof.LibRowsDot
import proofs.«179515_j63196148793993_2_alg».proof.Proof.LibLayoutReads
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic
import Idealize.ShloMosaic.PureOps.Ideal.Laws

set_option maxRecDepth 16384

noncomputable section

namespace Cert.KernelIdeal.Entry

open Idealize.ShloMosaic Idealize.ShloMosaic.TcCoe Idealize.SL.Sem Idealize.ShloMosaic.ValueIdx Cert.KernelIdeal Cert.KernelIdeal.Gen

/-! ## What the host leaves for the region, as terms of the arguments (any interpretation of floats) -/

section Found

variable {F : FTy → Type} [FloatOps F]
variable (m : (ℓ : Loc nD τ sig) → Buf (Elt F) ℓ)

/-- The flattened x. -/
abbrev flatX (c : Dev nD) : (⟨S8192x4096, .f32⟩ : BufTy).Contents (Elt F) :=
  shapeCast S8192x4096 (m ((c : Thread nD τ).loc main_arg0)) shapeCasts_S4x2048x4096_S8192x4096

theorem found_x (c : Dev nD) : V m c main_v2 = truncf .bf16 (flatX m c) bitsLt_bf16_f32 := by
  show StableHlo.after hostOps0 (fun b => m (c, b)) (Proc.devRef .tc main_v2) = _
  after_results
  rfl

theorem found_w (c : Dev nD) : V m c main_v3 = truncf .bf16 (m ((c : Thread nD τ).loc main_arg1)) bitsLt_bf16_f32 := by
  show StableHlo.after hostOps0 (fun b => m (c, b)) (Proc.devRef .tc main_v3) = _
  after_results

theorem found_b (c : Dev nD) : V m c main_v4 = truncf .bf16 (m ((c : Thread nD τ).loc main_arg4)) bitsLt_bf16_f32 := by
  show StableHlo.after hostOps0 (fun b => m (c, b)) (Proc.devRef .tc main_v4) = _
  after_results

theorem found_xa (c : Dev nD) : V m c main_v5
    = truncf .bf16 (Host.dotGeneral dot_S8192x4096_S16x4096_S8192x16_1_1_0_0_n_n none (flatX m c)
        (m ((c : Thread nD τ).loc main_arg3))) bitsLt_bf16_f32 := by
  show StableHlo.after hostOps0 (fun b => m (c, b)) (Proc.devRef .tc main_v5) = _
  after_results
  rfl

theorem found_bias (c : Dev nD) : V m c main_v6 = shapeCast S1x4096 (m ((c : Thread nD τ).loc main_arg2)) shapeCasts_S4096_S1x4096 := by
  show StableHlo.after hostOps0 (fun b => m (c, b)) (Proc.devRef .tc main_v6) = _
  after_results
  rfl

/-! ## Where each window's block sits at a point -/

/-- The printed index maps over the 64 points: row-block t / 8, column-block (t / 4) mod 2, contraction block
    t mod 4, each window taking the coordinates its index map names. -/
theorem idx_facts : ∀ t : Fin cfg0.N,
    win0_0.index t (0 : Fin 2) = t.val / 8 ∧ win0_0.index t (1 : Fin 2) = t.val % 4
    ∧ win0_1.index t (0 : Fin 2) = t.val / 4 % 2 ∧ win0_1.index t (1 : Fin 2) = t.val % 4
    ∧ win0_2.index t (0 : Fin 2) = t.val / 8 ∧ win0_2.index t (1 : Fin 2) = 0
    ∧ win0_3.index t (0 : Fin 2) = t.val / 4 % 2 ∧ win0_3.index t (1 : Fin 2) = 0
    ∧ win0_4.index t (0 : Fin 2) = 0 ∧ win0_4.index t (1 : Fin 2) = t.val / 4 % 2
    ∧ win0_5.index t (0 : Fin 2) = t.val / 8 ∧ win0_5.index t (1 : Fin 2) = t.val / 4 % 2 :=
  (by decide +kernel : ∀ t : Fin grid0.N, _)

theorem block_x (c : Dev nD) (t : Fin cfg0.N) (p l : Fin 1024) (r : Fin 8192) (k : Fin 4096)
    (hr : r.val = 1024 * (t.val / 8) + p.val) (hk : k.val = 1024 * (t.val % 4) + l.val) :
    (iblk m c 0 t : Vec F S1024x1024 .bf16) (ix2 p l) = V m c main_v2 (ix2 r k) := by
  unfold iblk
  rw [View.read_apply]
  show V m c main_v2 _ = V m c main_v2 (ix2 r k)
  refine congrArg (V m c main_v2) (funext fun a => Fin.ext ?_)
  obtain ⟨e0, e1, -⟩ := idx_facts t
  match a with
  | ⟨0, _⟩ => show win0_0.index t (0 : Fin 2) * 1024 + 1 * p.val = r.val; omega
  | ⟨1, _⟩ => show win0_0.index t (1 : Fin 2) * 1024 + 1 * l.val = k.val; omega

theorem block_w (c : Dev nD) (t : Fin cfg0.N) (q : Fin 2048) (l : Fin 1024) (o k : Fin 4096)
    (ho : o.val = 2048 * (t.val / 4 % 2) + q.val) (hk : k.val = 1024 * (t.val % 4) + l.val) :
    (iblk m c 1 t : Vec F S2048x1024 .bf16) (ix2 q l) = V m c main_v3 (ix2 o k) := by
  unfold iblk
  rw [View.read_apply]
  show V m c main_v3 _ = V m c main_v3 (ix2 o k)
  refine congrArg (V m c main_v3) (funext fun a => Fin.ext ?_)
  obtain ⟨-, -, e0, e1, -⟩ := idx_facts t
  match a with
  | ⟨0, _⟩ => show win0_1.index t (0 : Fin 2) * 2048 + 1 * q.val = o.val; omega
  | ⟨1, _⟩ => show win0_1.index t (1 : Fin 2) * 1024 + 1 * l.val = k.val; omega

theorem block_xa (c : Dev nD) (t : Fin cfg0.N) (p : Fin 1024) (j : Fin 16) (r : Fin 8192)
    (hr : r.val = 1024 * (t.val / 8) + p.val) :
    (iblk m c 2 t : Vec F S1024x16 .bf16) (ix2 p j) = V m c main_v5 (ix2 r j) := by
  unfold iblk
  rw [View.read_apply]
  show V m c main_v5 _ = V m c main_v5 (ix2 r j)
  refine congrArg (V m c main_v5) (funext fun a => Fin.ext ?_)
  obtain ⟨-, -, -, -, e0, e1, -⟩ := idx_facts t
  match a with
  | ⟨0, _⟩ => show win0_2.index t (0 : Fin 2) * 1024 + 1 * p.val = r.val; omega
  | ⟨1, _⟩ => show win0_2.index t (1 : Fin 2) * 16 + 1 * j.val = j.val; omega

theorem block_b (c : Dev nD) (t : Fin cfg0.N) (q : Fin 2048) (j : Fin 16) (o : Fin 4096)
    (ho : o.val = 2048 * (t.val / 4 % 2) + q.val) :
    (iblk m c 3 t : Vec F S2048x16 .bf16) (ix2 q j) = V m c main_v4 (ix2 o j) := by
  unfold iblk
  rw [View.read_apply]
  show V m c main_v4 _ = V m c main_v4 (ix2 o j)
  refine congrArg (V m c main_v4) (funext fun a => Fin.ext ?_)
  obtain ⟨-, -, -, -, -, -, e0, e1, -⟩ := idx_facts t
  match a with
  | ⟨0, _⟩ => show win0_3.index t (0 : Fin 2) * 2048 + 1 * q.val = o.val; omega
  | ⟨1, _⟩ => show win0_3.index t (1 : Fin 2) * 16 + 1 * j.val = j.val; omega

theorem block_bias (c : Dev nD) (t : Fin cfg0.N) (q : Fin 2048) (o : Fin 4096)
    (ho : o.val = 2048 * (t.val / 4 % 2) + q.val) :
    (iblk m c 4 t : Vec F S1x2048 .f32) (ix2 (0 : Fin 1) q) = V m c main_v6 (ix2 (0 : Fin 1) o) := by
  unfold iblk
  rw [View.read_apply]
  show V m c main_v6 _ = V m c main_v6 (ix2 (0 : Fin 1) o)
  refine congrArg (V m c main_v6) (funext fun a => Fin.ext ?_)
  obtain ⟨-, -, -, -, -, -, -, -, e0, e1, -⟩ := idx_facts t
  match a with
  | ⟨0, _⟩ => show win0_4.index t (0 : Fin 2) * 1 + 1 * (0 : Fin 1).val = (0 : Fin 1).val; rw [e0]; rfl
  | ⟨1, _⟩ => show win0_4.index t (1 : Fin 2) * 2048 + 1 * q.val = o.val; omega

end Found

/-! ## The found arrays at an entry, over the extended reals -/

section AtIdeal

variable (m : (ℓ : Loc nD τ sig) → Buf (Elt Ideal) ℓ)

/-- The five argument arrays on core c, as functions into the extended reals. -/
abbrev argX (c : Dev nD) : (⟨3, ![4, 2048, 4096]⟩ : Shape).Idx → EReal := m ((c : Thread nD τ).loc main_arg0)
abbrev argW (c : Dev nD) : (⟨2, ![4096, 4096]⟩ : Shape).Idx → EReal := m ((c : Thread nD τ).loc main_arg1)
abbrev argBias (c : Dev nD) : (⟨1, ![4096]⟩ : Shape).Idx → EReal := m ((c : Thread nD τ).loc main_arg2)
abbrev argA (c : Dev nD) : (⟨2, ![16, 4096]⟩ : Shape).Idx → EReal := m ((c : Thread nD τ).loc main_arg3)
abbrev argB (c : Dev nD) : (⟨2, ![4096, 16]⟩ : Shape).Idx → EReal := m ((c : Thread nD τ).loc main_arg4)

/-- Row 2048*b + s of the flat x is row s of matrix b. -/
theorem x_apply (c : Dev nD) (b : Fin 4) (s : Fin 2048) (k : Fin 4096) (r : Fin 8192) (hr : r.val = b.val * 2048 + s.val) :
    V m c main_v2 (ix2 r k) = argX m c (ix3 b s k) := by
  rw [found_x]
  exact Cert.Lib.shapeCast_merge_rows_apply (m ((c : Thread nD τ).loc main_arg0)) shapeCasts_S4x2048x4096_S8192x4096 b s k r hr

theorem w_apply (c : Dev nD) (o k : Fin 4096) : V m c main_v3 (ix2 o k) = argW m c (ix2 o k) := by
  rw [found_w]; rfl

theorem b_apply (c : Dev nD) (o : Fin 4096) (j : Fin 16) : V m c main_v4 (ix2 o j) = argB m c (ix2 o j) := by
  rw [found_b]; rfl

/-- Entry (r, j) of the [8192, 16] array: row s of matrix b of x dotted with row j of the low-rank factor A. -/
theorem xa_apply (c : Dev nD) (b : Fin 4) (s : Fin 2048) (j : Fin 16) (r : Fin 8192) (hr : r.val = b.val * 2048 + s.val) :
    (V m c main_v5 (ix2 r j) : EReal) = ∑ i : Fin 4096, argX m c (ix3 b s i) * argA m c (ix2 j i) := by
  rw [found_xa]
  refine (Cert.Lib.dotGeneral_rowsDot_apply (M := 8192) (K := 4096) (N := 16) (φ₁ := .f32) (φ₂ := .f32) none .single
    (flatX m c) (argA m c) r j).trans ?_
  refine Finset.sum_congr rfl fun i _ => ?_
  exact congrArg (· * argA m c (ix2 j i))
    (Cert.Lib.shapeCast_merge_rows_apply (argX m c) shapeCasts_S4x2048x4096_S8192x4096 b s i r hr)

theorem bias_apply (c : Dev nD) (o : Fin 4096) : V m c main_v6 (ix2 (0 : Fin 1) o) = argBias m c (ix1 o) := by
  rw [found_bias]
  exact shapeCast_a_1a_apply (m ((c : Thread nD τ).loc main_arg2)) shapeCasts_S4096_S1x4096 (0 : Fin 1) o

/-- The five arrays the region finds on core c, as functions into the extended reals. -/
abbrev fndX (c : Dev nD) : (⟨2, ![8192, 4096]⟩ : Shape).Idx → EReal := V m c main_v2
abbrev fndW (c : Dev nD) : (⟨2, ![4096, 4096]⟩ : Shape).Idx → EReal := V m c main_v3
abbrev fndXA (c : Dev nD) : (⟨2, ![8192, 16]⟩ : Shape).Idx → EReal := V m c main_v5
abbrev fndB (c : Dev nD) : (⟨2, ![4096, 16]⟩ : Shape).Idx → EReal := V m c main_v4
abbrev fndBias (c : Dev nD) : (⟨2, ![1, 4096]⟩ : Shape).Idx → EReal := V m c main_v6

/-! ## The two large arrays over natural-number coordinates -/

/-- The flat x at natural-number coordinates: 0 outside the array. -/
def xN (c : Dev nD) (r i : ℕ) : EReal := if h : r < 8192 ∧ i < 4096 then V m c main_v2 (ix2 ⟨r, h.1⟩ ⟨i, h.2⟩) else 0

/-- W at natural-number coordinates: 0 outside the array. -/
def wN (c : Dev nD) (o i : ℕ) : EReal := if h : o < 4096 ∧ i < 4096 then V m c main_v3 (ix2 ⟨o, h.1⟩ ⟨i, h.2⟩) else 0

theorem xN_eq (c : Dev nD) (r : Fin 8192) (k : Fin 4096) : xN m c r.val k.val = V m c main_v2 (ix2 r k) := by
  unfold xN; rw [dif_pos ⟨r.isLt, k.isLt⟩]

theorem wN_eq (c : Dev nD) (o k : Fin 4096) : wN m c o.val k.val = V m c main_v3 (ix2 o k) := by
  unfold wN; rw [dif_pos ⟨o.isLt, k.isLt⟩]

/-- Entry (p, l) of the x block at point t. -/
theorem block_xN (c : Dev nD) (t : Fin cfg0.N) (p l : Fin 1024) :
    (iblk m c 0 t : Vec Ideal S1024x1024 .bf16) (ix2 p l) = xN m c (1024 * (t.val / 8) + p.val) (1024 * (t.val % 4) + l.val) := by
  have hN : t.val < 64 := lt_of_lt_of_eq t.isLt (show cfg0.N = 64 from N_0)
  have hr : 1024 * (t.val / 8) + p.val < 8192 := by have := p.isLt; omega
  have hk : 1024 * (t.val % 4) + l.val < 4096 := by have := l.isLt; omega
  rw [block_x m c t p l ⟨_, hr⟩ ⟨_, hk⟩ rfl rfl]
  exact (xN_eq m c ⟨_, hr⟩ ⟨_, hk⟩).symm

/-- Entry (q, l) of the W block at point t. -/
theorem block_wN (c : Dev nD) (t : Fin cfg0.N) (q : Fin 2048) (l : Fin 1024) :
    (iblk m c 1 t : Vec Ideal S2048x1024 .bf16) (ix2 q l) = wN m c (2048 * (t.val / 4 % 2) + q.val) (1024 * (t.val % 4) + l.val) := by
  have hN : t.val < 64 := lt_of_lt_of_eq t.isLt (show cfg0.N = 64 from N_0)
  have ho : 2048 * (t.val / 4 % 2) + q.val < 4096 := by have := q.isLt; omega
  have hk : 1024 * (t.val % 4) + l.val < 4096 := by have := l.isLt; omega
  rw [block_w m c t q l ⟨_, ho⟩ ⟨_, hk⟩ rfl rfl]
  exact (wN_eq m c ⟨_, ho⟩ ⟨_, hk⟩).symm

end AtIdeal

end Cert.KernelIdeal.Entry

end
-- ==== Proof.LibBlockSum.lean ====
/-
  A sum over the first `J * B` natural numbers, taken block by block.
-/
import Mathlib.Algebra.BigOperators.Fin
import Mathlib.Data.Fintype.BigOperators
import Mathlib.Logic.Equiv.Fin.Basic

namespace Cert.Lib

/-- A sum over the first `J * B` naturals is the sum, over the `J` consecutive blocks of `B` naturals, of each
    block's own sum: `∑_{s < J} ∑_{l < B} f (B·s + l) = ∑_{k < J·B} f k`. It holds in any commutative additive monoid
    — only commutativity and associativity of `+` are used —, so also on the extended reals, where no cancellation or
    distributivity is available: the pairs `(s, l)` and the naturals `B·s + l` below `J·B` correspond one to one. -/
theorem sum_blocks {M : Type*} [AddCommMonoid M] (J B : ℕ) (f : ℕ → M) :
    ∑ s ∈ Finset.range J, ∑ l : Fin B, f (B * s + l.val) = ∑ k : Fin (J * B), f k.val := by
  rw [Finset.sum_range (fun s => ∑ l : Fin B, f (B * s + l.val))]
  rw [← Fintype.sum_prod_type' (fun (s : Fin J) (l : Fin B) => f (B * s.val + l.val))]
  refine Fintype.sum_equiv finProdFinEquiv _ _ (fun x => ?_)
  show f (B * x.1.val + x.2.val) = f (x.2.val + B * x.1.val)
  rw [Nat.add_comm]

end Cert.Lib
-- ==== Proof.LoraSpec.lean ====
/-
  A linear layer with a low-rank update, entry by entry over the extended reals.

  For x of shape [4, 2048, 4096], a weight W [4096, 4096], a bias [4096] and low-rank factors A [16, 4096] and
  B [4096, 16], the result at (b, s, o) is

      ( sum_i x[b,s,i] * W[o,i]  +  bias[o] )  +  sum_j ( sum_i x[b,s,i] * A[j,i] ) * B[o,j].

  Two facts join the two ways of computing it. A contraction over 4096 positions may be taken as four consecutive
  blocks of 1024 whose partial sums are added in order; and the bias and the low-rank term may be added in either
  order. Both use only that addition is commutative and associative, which holds on the extended reals without any
  finiteness assumption; no product is ever distributed over a sum.
-/
import proofs.«179515_j63196148793993_2_alg».proof.Proof.LibBlockSum
import Idealize.ShloMosaic.Lib.ValueIdx
import Idealize.ShloMosaic.PureOps.Ideal

noncomputable section

namespace Cert.Lora

open Idealize.ShloMosaic Idealize.ShloMosaic.ValueIdx

/-- The result at (b, s, o). -/
def entry (x : (⟨3, ![4, 2048, 4096]⟩ : Shape).Idx → EReal) (w : (⟨2, ![4096, 4096]⟩ : Shape).Idx → EReal)
    (bias : (⟨1, ![4096]⟩ : Shape).Idx → EReal) (a : (⟨2, ![16, 4096]⟩ : Shape).Idx → EReal)
    (bm : (⟨2, ![4096, 16]⟩ : Shape).Idx → EReal) (b : Fin 4) (s : Fin 2048) (o : Fin 4096) : EReal :=
  (∑ i : Fin 4096, x (ix3 b s i) * w (ix2 o i) + bias (ix1 o))
    + ∑ j : Fin 16, (∑ i : Fin 4096, x (ix3 b s i) * a (ix2 j i)) * bm (ix2 o j)

/-- The whole result array. -/
def out (x : (⟨3, ![4, 2048, 4096]⟩ : Shape).Idx → EReal) (w : (⟨2, ![4096, 4096]⟩ : Shape).Idx → EReal)
    (bias : (⟨1, ![4096]⟩ : Shape).Idx → EReal) (a : (⟨2, ![16, 4096]⟩ : Shape).Idx → EReal)
    (bm : (⟨2, ![4096, 16]⟩ : Shape).Idx → EReal) : (⟨3, ![4, 2048, 4096]⟩ : Shape).Idx → EReal :=
  fun i => entry x w bias a bm (i 0) (i 1) (i 2)

theorem out_apply (x : (⟨3, ![4, 2048, 4096]⟩ : Shape).Idx → EReal) (w : (⟨2, ![4096, 4096]⟩ : Shape).Idx → EReal)
    (bias : (⟨1, ![4096]⟩ : Shape).Idx → EReal) (a : (⟨2, ![16, 4096]⟩ : Shape).Idx → EReal)
    (bm : (⟨2, ![4096, 16]⟩ : Shape).Idx → EReal) (b : Fin 4) (s : Fin 2048) (o : Fin 4096) :
    out x w bias a bm (ix3 b s o) = entry x w bias a bm b s o := rfl

/-- Four consecutive blocks of 1024 positions, summed block by block, are the 4096 positions summed once. -/
theorem sum_four_blocks {M : Type*} [AddCommMonoid M] (f : ℕ → M) :
    ∑ s ∈ Finset.range 4, ∑ l : Fin 1024, f (1024 * s + l.val) = ∑ k : Fin 4096, f k.val :=
  Cert.Lib.sum_blocks 4 1024 f

/-- The entry with the low-rank term added before the bias, as the kernel adds them. -/
theorem entry_eq (x : (⟨3, ![4, 2048, 4096]⟩ : Shape).Idx → EReal) (w : (⟨2, ![4096, 4096]⟩ : Shape).Idx → EReal)
    (bias : (⟨1, ![4096]⟩ : Shape).Idx → EReal) (a : (⟨2, ![16, 4096]⟩ : Shape).Idx → EReal)
    (bm : (⟨2, ![4096, 16]⟩ : Shape).Idx → EReal) (b : Fin 4) (s : Fin 2048) (o : Fin 4096) :
    (∑ i : Fin 4096, x (ix3 b s i) * w (ix2 o i)
        + ∑ j : Fin 16, (∑ i : Fin 4096, x (ix3 b s i) * a (ix2 j i)) * bm (ix2 o j)) + bias (ix1 o)
      = entry x w bias a bm b s o := by
  unfold entry
  exact add_right_comm _ _ _

end Cert.Lora

end
-- ==== Proof.RunningSum.lean ====
/-
  What the output block holds when it is written back.

  The four points 4u, 4u+1, 4u+2, 4u+3 of the grid share one output block (row-block u / 2, column-block u mod 2)
  and walk the four contraction blocks. The block is reset at 4u, receives one partial product at each of the four
  points, and at 4u+3 also receives the low-rank product and the bias row. So after point 4u+3 its entry (p, q),
  which is entry (r, o) of the whole [8192, 4096] array with r = 1024*(u/2) + p and o = 2048*(u mod 2) + q, is

      ((0 + P0 + P1 + P2) + P3 + L) + beta,    Pk = sum over the 1024 positions of block k of x[r,i] * W[o,i],

  L the dot product of row r of the [8192,16] array with row o of B, beta the bias at o. Only associativity is
  needed to read 0 + P0 + P1 + P2 + P3 as a sum over the four blocks, and the four blocks of 1024 positions are the
  4096 positions, so the entry is  (sum_i x[r,i] * W[o,i]  +  L) + beta.
-/
import proofs.«179515_j63196148793993_2_alg».proof.Proof.CaseValue
import proofs.«179515_j63196148793993_2_alg».proof.Proof.StepValue
import proofs.«179515_j63196148793993_2_alg».proof.Proof.EntryArrays
import proofs.«179515_j63196148793993_2_alg».proof.Proof.LoraSpec
import Idealize.ShloMosaic.Lib.Pipeline.Value

set_option maxRecDepth 16384

noncomputable section

namespace Cert.KernelIdeal.Running

open Idealize.ShloMosaic Idealize.ShloMosaic.TcCoe Idealize.SL.Sem Idealize.ShloMosaic.ValueIdx
open Cert.KernelIdeal Cert.KernelIdeal.Gen Cert.KernelIdeal.Entry

variable (m : (ℓ : Loc nD τ sig) → Buf (Elt Ideal) ℓ)

/-! ## The block after each point, as a fold over its run of four points -/

/-- What the first point of a run leaves: the accumulating step of the reset value. -/
def start (c : Dev nD) (n : ℕ) (h : n < cfg0.N) : Vec Ideal S1024x2048 .f32 :=
  k0_pay2 (iblk m c 0 ⟨n, h⟩) (iblk m c 1 ⟨n, h⟩) (k0_pay1 (F := Ideal))

/-- What a later point makes of what the point before left: the accumulating step, followed at the last point of
    the run by the closing step. -/
def step (c : Dev nD) (n : ℕ) (h : n < cfg0.N) (acc : Vec Ideal S1024x2048 .f32) : Vec Ideal S1024x2048 .f32 :=
  if n % 4 = 3 then
    k0_pay3 (iblk m c 2 ⟨n, h⟩) (iblk m c 3 ⟨n, h⟩) (k0_pay2 (iblk m c 0 ⟨n, h⟩) (iblk m c 1 ⟨n, h⟩) acc) (iblk m c 4 ⟨n, h⟩)
  else k0_pay2 (iblk m c 0 ⟨n, h⟩) (iblk m c 1 ⟨n, h⟩) acc

theorem outs_reset (c : Dev nD) (n : ℕ) (h : n < cfg0.N) (h0 : n % 4 = 0) : outsAt0 m c n h = start m c n h := by
  have h1 : ¬n % 4 = 3 := by omega
  exact (outsAt0_A m c ⟨n, h⟩ h0 h1).trans (CaseValue.first ..)

theorem outs_step (c : Dev nD) (n : ℕ) (h : n + 1 < cfg0.N) (h0 : ¬(n + 1) % 4 = 0) :
    outsAt0 m c (n + 1) h = step m c (n + 1) h (outsAt0 m c n (Nat.lt_of_succ_lt h)) := by
  unfold step
  by_cases h1 : (n + 1) % 4 = 3
  · rw [if_pos h1]
    exact (outsAt0_C m c ⟨n + 1, h⟩ h0 h1).trans (CaseValue.last ..)
  · rw [if_neg h1]
    exact (outsAt0_B m c ⟨n + 1, h⟩ h0 h1).trans (CaseValue.middle ..)

/-- After any point, the block is the fold over the run the point lies in, up to that point. -/
theorem outs_fold (c : Dev nD) (t : ℕ) (ht : t < cfg0.N) (h' : 4 * (t / 4) + t % 4 < cfg0.N) :
    outsAt0 m c t ht = Pipeline.accAt (start m c) (step m c) (4 * (t / 4)) (t % 4) h' :=
  Pipeline.eq_accAt_of_mod (outsAt0 m c) 4 (start m c) (step m c) (outs_reset m c) (outs_step m c) (by decide) t ht h'

/-! ## One point's partial product -/

/-- The partial product point n adds at entry y of the block: the 1024 positions of contraction block n mod 4, of
    row 1024*(n/8) + y0 of the flat x against row 2048*((n/4) mod 2) + y1 of W. -/
def addend (c : Dev nD) (n : ℕ) (y : S1024x2048.Idx) : EReal :=
  ∑ l : Fin 1024, xN m c (1024 * (n / 8) + (y 0).val) (1024 * (n % 4) + l.val)
    * wN m c (2048 * (n / 4 % 2) + (y 1).val) (1024 * (n % 4) + l.val)

theorem accumulate_at (c : Dev nD) (n : ℕ) (h : n < cfg0.N) (acc : Vec Ideal S1024x2048 .f32) (y : S1024x2048.Idx) :
    k0_pay2 (iblk m c 0 ⟨n, h⟩) (iblk m c 1 ⟨n, h⟩) acc y = acc y + addend m c n y := by
  obtain ⟨p, q, rfl⟩ : ∃ (p : Fin 1024) (q : Fin 2048), y = ix2 p q := ⟨y 0, y 1, eq_ix2 y⟩
  refine (StepValue.accumulate_apply _ _ acc p q).trans ?_
  refine congrArg (acc (ix2 p q) + ·) (Finset.sum_congr rfl fun l _ => ?_)
  exact congrArg₂ (· * ·) (block_xN m c ⟨n, h⟩ p l) (block_wN m c ⟨n, h⟩ q l)

theorem start_apply (c : Dev nD) (n : ℕ) (h : n < cfg0.N) (y : S1024x2048.Idx) :
    start m c n h y = 0 + addend m c n y := by
  unfold start
  refine (accumulate_at m c n h _ y).trans ?_
  exact congrArg (· + addend m c n y) (StepValue.reset_apply y)

theorem step_middle (c : Dev nD) (n : ℕ) (h : n < cfg0.N) (hn : ¬n % 4 = 3) (acc : Vec Ideal S1024x2048 .f32)
    (y : S1024x2048.Idx) : step m c n h acc y = acc y + addend m c n y := by
  unfold step
  rw [if_neg hn]
  exact accumulate_at m c n h acc y

theorem step_last (c : Dev nD) (n : ℕ) (h : n < cfg0.N) (hn : n % 4 = 3) (acc : Vec Ideal S1024x2048 .f32)
    (p : Fin 1024) (q : Fin 2048) (r : Fin 8192) (o : Fin 4096)
    (hr : r.val = 1024 * (n / 8) + p.val) (ho : o.val = 2048 * (n / 4 % 2) + q.val) :
    step m c n h acc (ix2 p q)
      = ((acc (ix2 p q) + addend m c n (ix2 p q)) + ∑ j : Fin 16, fndXA m c (ix2 r j) * fndB m c (ix2 o j))
        + fndBias m c (ix2 (0 : Fin 1) o) := by
  unfold step
  rw [if_pos hn]
  refine (StepValue.close_apply _ _ _ _ p q).trans ?_
  refine congrArg₂ (· + ·) (congrArg₂ (· + ·) (accumulate_at m c n h acc (ix2 p q)) (Finset.sum_congr rfl fun j _ => ?_)) ?_
  · exact congrArg₂ (· * ·) (block_xa m c ⟨n, h⟩ p j r hr) (block_b m c ⟨n, h⟩ q j o ho)
  · exact block_bias m c ⟨n, h⟩ q o ho

/-! ## The run unrolled -/

/-- After the third point of a run the block holds 0 plus the first three partial products. -/
theorem fold_three (c : Dev nD) (b : ℕ) (hb : b % 4 = 0) (h2 : b + 2 < cfg0.N) (y : S1024x2048.Idx) :
    Pipeline.accAt (start m c) (step m c) b 2 h2 y = 0 + ∑ s ∈ Finset.range 3, addend m c (b + s) y :=
  Pipeline.accAt_add_apply (β := EReal) (start m c) (step m c) (fun _ => 0) (addend m c) b 2
    (fun h i => start_apply m c b h i)
    (fun n h acc i hlo hhi => step_middle m c n h (by omega) acc i) 2 (le_refl 2) h2 y

/-- THE BLOCK WHEN IT IS WRITTEN BACK: at a point t with t mod 4 = 3, entry (p, q) of the block is the whole-row
    product, plus the low-rank product, plus the bias, at entry (r, o) of the array. -/
theorem block_at_flush (c : Dev nD) (t : Fin cfg0.N) (h3 : t.val % 4 = 3) (p : Fin 1024) (q : Fin 2048)
    (r : Fin 8192) (o : Fin 4096) (hr : r.val = 1024 * (t.val / 8) + p.val) (ho : o.val = 2048 * (t.val / 4 % 2) + q.val) :
    outsAt0 m c t.val t.isLt (ix2 p q)
      = ((∑ k : Fin 4096, fndX m c (ix2 r k) * fndW m c (ix2 o k)) + ∑ j : Fin 16, fndXA m c (ix2 r j) * fndB m c (ix2 o j))
        + fndBias m c (ix2 (0 : Fin 1) o) := by
  have hdm : 4 * (t.val / 4) + t.val % 4 = t.val := Nat.div_add_mod t.val 4
  have h' : 4 * (t.val / 4) + t.val % 4 < cfg0.N := by rw [hdm]; exact t.isLt
  rw [outs_fold m c t.val t.isLt h']
  have key : ∀ (j : ℕ) (hj : j = 3) (hh : 4 * (t.val / 4) + j < cfg0.N),
      Pipeline.accAt (start m c) (step m c) (4 * (t.val / 4)) j hh (ix2 p q)
        = ((∑ k : Fin 4096, fndX m c (ix2 r k) * fndW m c (ix2 o k)) + ∑ j : Fin 16, fndXA m c (ix2 r j) * fndB m c (ix2 o j))
          + fndBias m c (ix2 (0 : Fin 1) o) := by
    intro j hj hh
    subst hj
    show step m c (4 * (t.val / 4) + 3) hh (Pipeline.accAt (start m c) (step m c) (4 * (t.val / 4)) 2 (Nat.lt_of_succ_lt hh)) (ix2 p q) = _
    refine (step_last m c (4 * (t.val / 4) + 3) hh (by omega) _ p q r o (by omega) (by omega)).trans ?_
    refine congrArg (· + fndBias m c (ix2 (0 : Fin 1) o)) (congrArg (· + ∑ j : Fin 16, fndXA m c (ix2 r j) * fndB m c (ix2 o j)) ?_)
    rw [fold_three m c (4 * (t.val / 4)) (by omega) (Nat.lt_of_succ_lt hh) (ix2 p q), zero_add,
      ← Finset.sum_range_succ (fun s => addend m c (4 * (t.val / 4) + s) (ix2 p q)) 3]
    have hsum : ∀ s ∈ Finset.range (3 + 1), addend m c (4 * (t.val / 4) + s) (ix2 p q)
        = ∑ l : Fin 1024, (fun i => xN m c r.val i * wN m c o.val i) (1024 * s + l.val) := by
      intro s hs
      have hs4 : s < 4 := Finset.mem_range.mp hs
      have e1 : (4 * (t.val / 4) + s) / 8 = t.val / 8 := by omega
      have e2 : (4 * (t.val / 4) + s) % 4 = s := by omega
      have e3 : (4 * (t.val / 4) + s) / 4 % 2 = t.val / 4 % 2 := by omega
      show ∑ l : Fin 1024, xN m c (1024 * ((4 * (t.val / 4) + s) / 8) + p.val) (1024 * ((4 * (t.val / 4) + s) % 4) + l.val)
          * wN m c (2048 * ((4 * (t.val / 4) + s) / 4 % 2) + q.val) (1024 * ((4 * (t.val / 4) + s) % 4) + l.val) = _
      rw [e1, e2, e3, ← hr, ← ho]
    rw [Finset.sum_congr rfl hsum]
    refine (Cert.Lora.sum_four_blocks (fun i => xN m c r.val i * wN m c o.val i)).trans ?_
    refine Finset.sum_congr rfl fun k _ => ?_
    exact congrArg₂ (· * ·) (xN_eq m c r k) (wN_eq m c o k)
  exact key (t.val % 4) h3 h'

end Cert.KernelIdeal.Running

end
-- ==== Proof.ResultArray.lean ====
/-
  The array the kernel region leaves, the reshaped result, and the kernel's run.

  The output window is written back at the 16 points t with t mod 4 = 3; the block written at t is rows
  1024*(t/8) .. and columns 2048*((t/4) mod 2) .. of the [8192, 4096] array, and these 8 * 2 blocks tile the array:
  entry (r, o) lies in the block written at t = 8*(r/1024) + 4*(o/2048) + 3. Every written block is the matching
  block of ONE function of the arrays the region found -- the whole-row product plus the low-rank product plus the bias
  -- so the array ends holding that function. The host then views the [8192, 4096] array as [4, 2048, 4096]: entry
  (b, s, o) of the result is entry (2048*b + s, o) of the array, where the found arrays read back to the arguments and
  the entry is the specification's.
-/
import proofs.«179515_j63196148793993_2_alg».proof.Proof.RunningSum
import proofs.«179515_j63196148793993_2_alg».proof.Proof.LibLayoutReads
import Idealize.ShloMosaic.Lib.Pipeline.Value
import Idealize.ShloMosaic.Lib.StableHlo.Run
import Idealize.ShloMosaic.Lib.Tactic

set_option maxRecDepth 16384

noncomputable section

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Entry

variable (m : (ℓ : Loc nD τ sig) → Buf (Elt Ideal) ℓ) (ρ : Dev nD → PrngReg)

/-! ## From blocks to the array -/

/-- The function of the found arrays that every written block is a block of. -/
def flat (c : Dev nD) : (⟨2, ![8192, 4096]⟩ : Shape).Idx → EReal := fun i =>
  ((∑ k : Fin 4096, fndX m c (ix2 (i 0) k) * fndW m c (ix2 (i 1) k)) + ∑ j : Fin 16, fndXA m c (ix2 (i 0) j) * fndB m c (ix2 (i 1) j))
    + fndBias m c (ix2 (0 : Fin 1) (i 1))

/-- An entry of the block written back at t is the entry of `flat` at the same place in the array. -/
theorem block_entry (c : Dev nD) (t : Fin cfg0.N) (h3 : t.val % 4 = 3) (y : S1024x2048.Idx) (i : S8192x4096.Idx)
    (h0 : (i 0).val = 1024 * (t.val / 8) + (y 0).val) (h1 : (i 1).val = 2048 * (t.val / 4 % 2) + (y 1).val) :
    outsAt0 m c t.val t.isLt y = flat m c i := by
  obtain ⟨p, q, rfl⟩ : ∃ (p : Fin 1024) (q : Fin 2048), y = ix2 p q := ⟨y 0, y 1, eq_ix2 y⟩
  exact Running.block_at_flush m c t h3 p q (i 0) (i 1) h0 h1

/-- What a writing point writes back is its block of `flat`. -/
theorem flushed_eq (c : Dev nD) (t : Fin cfg0.N) (hf : (cfg0.win 5).flush t = true) :
    (dats m 0 c).flushed 5 t = ((cfg0.win 5).blk t).view.read (Elt Ideal) (flat m c) := by
  have h3 : t.val % 4 = 3 := (flush0_5 t).mp hf
  show (cfg0.win 5).cut (grid0.coords t) ((dats m 0 c).after 5 t) = _
  rw [after0_5]
  funext y
  obtain ⟨-, -, -, -, -, -, -, -, -, -, e0, e1⟩ := idx_facts t
  refine block_entry m c t h3 y (((cfg0.win 5).blk t).view.emb y) ?_ ?_
  · show win0_5.index t (0 : Fin 2) * 1024 + 1 * (y 0).val = 1024 * (t.val / 8) + (y 0).val
    omega
  · show win0_5.index t (1 : Fin 2) * 2048 + 1 * (y 1).val = 2048 * (t.val / 4 % 2) + (y 1).val
    omega

/-- An entry of the array is in the block of point t iff each coordinate is in the block's range. -/
theorem mem_blk (t : Fin cfg0.N) (i : S8192x4096.Idx) :
    i ∈ ((cfg0.win 5).blk t).view.set ↔ ∀ a : Fin 2, win0_5.index t a * S1024x2048.size a ≤ (i a).val
      ∧ (i a).val < win0_5.index t a * S1024x2048.size a + S1024x2048.size a := by
  show i ∈ ((View.whole main_v7).slice (win0_5.rect t)).set ↔ _
  rw [View.set_slice_whole, Rect.mem_set_unit]
  exact Iff.rfl

/-- The written blocks tile the array. -/
theorem cover (i : S8192x4096.Idx) : ∃ t : Fin cfg0.N, (cfg0.win 5).flush t = true ∧ i ∈ ((cfg0.win 5).blk t).view.set := by
  have hi0 : (i 0).val < 8192 := (i 0).isLt
  have hi1 : (i 1).val < 4096 := (i 1).isLt
  have hn : 8 * ((i 0).val / 1024) + 4 * ((i 1).val / 2048) + 3 < cfg0.N := by
    rw [show cfg0.N = 64 from N_0]; omega
  refine ⟨⟨8 * ((i 0).val / 1024) + 4 * ((i 1).val / 2048) + 3, hn⟩, (flush0_5 _).mpr (by show (8 * ((i 0).val / 1024) + 4 * ((i 1).val / 2048) + 3) % 4 = 3; omega), ?_⟩
  rw [mem_blk]
  obtain ⟨-, -, -, -, -, -, -, -, -, -, e0, e1⟩ := idx_facts ⟨8 * ((i 0).val / 1024) + 4 * ((i 1).val / 2048) + 3, hn⟩
  intro a
  match a with
  | ⟨0, _⟩ =>
    show win0_5.index _ (0 : Fin 2) * 1024 ≤ (i 0).val ∧ (i 0).val < win0_5.index _ (0 : Fin 2) * 1024 + 1024
    rw [e0]
    show (8 * ((i 0).val / 1024) + 4 * ((i 1).val / 2048) + 3) / 8 * 1024 ≤ (i 0).val
      ∧ (i 0).val < (8 * ((i 0).val / 1024) + 4 * ((i 1).val / 2048) + 3) / 8 * 1024 + 1024
    omega
  | ⟨1, _⟩ =>
    show win0_5.index _ (1 : Fin 2) * 2048 ≤ (i 1).val ∧ (i 1).val < win0_5.index _ (1 : Fin 2) * 2048 + 2048
    rw [e1]
    show (8 * ((i 0).val / 1024) + 4 * ((i 1).val / 2048) + 3) / 4 % 2 * 2048 ≤ (i 1).val
      ∧ (i 1).val < (8 * ((i 0).val / 1024) + 4 * ((i 1).val / 2048) + 3) / 4 % 2 * 2048 + 2048
    omega

/-- So the array the region leaves is `flat`. -/
theorem final (c : Dev nD) : (dats m 0 c).arrAt 5 cfg0.N = flat m c :=
  (dats m 0 c).arrAt_eq_of_cover 5 (flat m c) (flushed_eq m c) (cover)

/-! ## The reshape after the region, and the run -/

/-- The result: the array viewed as [4, 2048, 4096]. -/
def result (c : Dev nD) : Buf (Elt Ideal) ((c : Thread nD τ).loc main_v8) :=
  shapeCast S4x2048x4096 (flat m c) shapeCasts_S8192x4096_S4x2048x4096

theorem tail_eq (c : Dev nD) :
    Pipeline.afterTail₀ cfgs (dats m) 0 (V0 m) [hostOps1] c main_v8 = result m c := by
  unfold Pipeline.afterTail₀
  show StableHlo.after hostOps1 _ (Proc.devRef .tc main_v8) = _
  after_results
  unfold result
  exact congrArg (fun z => shapeCast S4x2048x4096 z shapeCasts_S8192x4096_S4x2048x4096)
    ((Pipeline.withArrays_arr spec0 launch0.win.arr_inj c _ _ 5).trans (final m c))

/-- THE KERNEL'S RUN: every weakly fair execution terminates with the result buffer at `result` and the five
    argument arrays unchanged. -/
theorem run : θ_run defs (onTc (τ := τ) (main (F := Ideal))) ⟨m, fun _ => 0, ρ⟩ (fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

/-! ## The result is the specification -/

/-- Entry (b, s, o) of the result is the specification's entry of the five argument arrays. -/
theorem result_eq (c : Dev nD) :
    (result m c : (⟨3, ![4, 2048, 4096]⟩ : Shape).Idx → EReal)
      = Cert.Lora.out (argX m c) (argW m c) (argBias m c) (argA m c) (argB m c) := by
  funext i
  obtain ⟨b, s, o, rfl⟩ : ∃ (b : Fin 4) (s : Fin 2048) (o : Fin 4096), i = ix3 b s o := ⟨i 0, i 1, i 2, eq_ix3 i⟩
  have hrlt : b.val * 2048 + s.val < 8192 := by have := b.isLt; have := s.isLt; omega
  rw [Cert.Lora.out_apply, ← Cert.Lora.entry_eq]
  unfold result
  refine (Cert.Lib.shapeCast_split_rows_apply (flat m c) shapeCasts_S8192x4096_S4x2048x4096 b s o ⟨b.val * 2048 + s.val, hrlt⟩ rfl).trans ?_
  show ((∑ k : Fin 4096, fndX m c (ix2 ⟨b.val * 2048 + s.val, hrlt⟩ k) * fndW m c (ix2 o k))
      + ∑ j : Fin 16, fndXA m c (ix2 ⟨b.val * 2048 + s.val, hrlt⟩ j) * fndB m c (ix2 o j)) + fndBias m c (ix2 (0 : Fin 1) o) = _
  refine congrArg₂ (· + ·) (congrArg₂ (· + ·) (Finset.sum_congr rfl fun k _ => ?_) (Finset.sum_congr rfl fun j _ => ?_)) (bias_apply m c o)
  · exact congrArg₂ (· * ·) (x_apply m c b s k ⟨_, hrlt⟩ rfl) (w_apply m c o k)
  · exact congrArg₂ (· * ·) (xa_apply m c b s j ⟨_, hrlt⟩ rfl) (b_apply m c o j)

end Cert.KernelIdeal.Result

end
-- ==== Proof.RefValue.lean ====
/-
  The reference computes the specification.

  Its seven operations are: x contracted with W along the last axis of both; the bias vector repeated over the two
  leading axes; their sum; x contracted with the low-rank factor A; that [4, 2048, 16] array contracted with the
  low-rank factor B; and the final sum. Read at (b, s, o) each contraction is a finite sum over its one contracted
  position and the repeated bias is the bias at o, so the result there is

      ( sum_i x[b,s,i] * W[o,i] + bias[o] ) + sum_j ( sum_i x[b,s,i] * A[j,i] ) * B[o,j],

  which is the specification's entry as written.
-/
import proofs.«179515_j63196148793993_2_alg».proof.Proof.Gen.ReferenceIdeal.Read
import proofs.«179515_j63196148793993_2_alg».proof.Proof.LoraSpec

noncomputable section

namespace Cert.ReferenceIdeal.RefValue

open Idealize.ShloMosaic Idealize.ShloMosaic.ValueIdx Cert.ReferenceIdeal Cert.ReferenceIdeal.Read

/-! ## Where each operation reads its operands -/

theorem lidx_v0 (b : Fin 4) (s : Fin 2048) (o : Fin 4096) (k : Fin 4096) : lidx_main_v0 (ix3 b s o) k = ix3 b s k :=
  funext fun a => Fin.ext (by match a with | ⟨0, _⟩ => rfl | ⟨1, _⟩ => rfl | ⟨2, _⟩ => rfl)

theorem ridx_v0 (b : Fin 4) (s : Fin 2048) (o : Fin 4096) (k : Fin 4096) : ridx_main_v0 (ix3 b s o) k = ix2 o k :=
  funext fun a => Fin.ext (by match a with | ⟨0, _⟩ => rfl | ⟨1, _⟩ => rfl)

theorem lidx_v4 (b : Fin 4) (s : Fin 2048) (j : Fin 16) (k : Fin 4096) : lidx_main_v4 (ix3 b s j) k = ix3 b s k :=
  funext fun a => Fin.ext (by match a with | ⟨0, _⟩ => rfl | ⟨1, _⟩ => rfl | ⟨2, _⟩ => rfl)

theorem ridx_v4 (b : Fin 4) (s : Fin 2048) (j : Fin 16) (k : Fin 4096) : ridx_main_v4 (ix3 b s j) k = ix2 j k :=
  funext fun a => Fin.ext (by match a with | ⟨0, _⟩ => rfl | ⟨1, _⟩ => rfl)

theorem lidx_v5 (b : Fin 4) (s : Fin 2048) (o : Fin 4096) (j : Fin 16) : lidx_main_v5 (ix3 b s o) j = ix3 b s j :=
  funext fun a => Fin.ext (by match a with | ⟨0, _⟩ => rfl | ⟨1, _⟩ => rfl | ⟨2, _⟩ => rfl)

theorem ridx_v5 (b : Fin 4) (s : Fin 2048) (o : Fin 4096) (j : Fin 16) : ridx_main_v5 (ix3 b s o) j = ix2 o j :=
  funext fun a => Fin.ext (by match a with | ⟨0, _⟩ => rfl | ⟨1, _⟩ => rfl)

theorem idx_v2 (b : Fin 4) (s : Fin 2048) (o : Fin 4096) : idx_main_v2 (ix3 b s o) = ix3 (0 : Fin 1) (0 : Fin 1) o :=
  funext fun a => Fin.ext (by match a with | ⟨0, _⟩ => rfl | ⟨1, _⟩ => rfl | ⟨2, _⟩ => rfl)

theorem idx_v1 (u v : Fin 1) (o : Fin 4096) : idx_main_v1 (ix3 u v o) = ix1 o :=
  funext fun a => Fin.ext (by match a with | ⟨0, _⟩ => rfl)

/-! ## The result -/

/-- The reference's result, as a function of its five arguments, is the specification. -/
theorem result_eq (x : (⟨S4x2048x4096, .f32⟩ : BufTy).Contents (Elt Ideal)) (w : (⟨S4096x4096, .f32⟩ : BufTy).Contents (Elt Ideal))
    (bias : (⟨S4096, .f32⟩ : BufTy).Contents (Elt Ideal)) (a : (⟨S16x4096, .f32⟩ : BufTy).Contents (Elt Ideal))
    (bm : (⟨S4096x16, .f32⟩ : BufTy).Contents (Elt Ideal)) :
    val_main_v6 (F := Ideal) x w bias a bm = Cert.Lora.out x w bias a bm := by
  funext i
  obtain ⟨b, s, o, rfl⟩ : ∃ (b : Fin 4) (s : Fin 2048) (o : Fin 4096), i = ix3 b s o := ⟨i 0, i 1, i 2, eq_ix3 i⟩
  rw [Cert.Lora.out_apply, val_main_v6_apply, val_main_v3_apply, val_main_v0_apply, val_main_v2_apply, idx_v2,
    val_main_v1_apply, idx_v1, val_main_v5_apply]
  simp only [lidx_v0, ridx_v0, lidx_v5, ridx_v5, val_main_v4_apply, lidx_v4, ridx_v4, Ideal.addf_def]
  rfl

end Cert.ReferenceIdeal.RefValue

end
-- ==== Proof.lean ====
/-
  A linear layer with a low-rank update: the tiled kernel against the plain reference, over the extended reals.

  For x [4, 2048, 4096], W [4096, 4096], bias [4096], A [16, 4096], B [4096, 16] both programs compute, at (b, s, o),

      sum_i x[b,s,i] * W[o,i]  +  bias[o]  +  sum_j ( sum_i x[b,s,i] * A[j,i] ) * B[o,j].

  The reference does it with three whole contractions and two additions, the bias added before the low-rank term.
  The kernel flattens x to 8192 rows, forms the [8192, 16] array x A^T on the host, and for each 1024 x 2048 block of
  the result walks the 4096 contraction positions in four blocks of 1024: it resets the block, adds one partial
  product per step, and after the fourth adds the low-rank product of the [8192, 16] array with B and then the bias
  row. A change of float format is the identity on the extended reals, and a matrix product into a zero accumulator
  is its finite sum, so the kernel's entry is ((0 + P0 + P1 + P2 + P3) + L) + bias[o]: the four partial sums regroup
  to the whole contraction, and the bias and the low-rank term commute. Only commutativity and associativity of
  addition are used; no product is distributed over a sum, so the finiteness of the inputs is never needed.

  The idealized kernel is the kernel's own text read over the extended reals (no operation was rewritten), so that
  claim is trivial; the three runs (termination, no fault, arguments unchanged) are the generated ones, the
  reference's being its generated run with the result forgotten.
-/
import proofs.«179515_j63196148793993_2_alg».proof.Defs
import proofs.«179515_j63196148793993_2_alg».proof.Proof.Gen.Kernel
import proofs.«179515_j63196148793993_2_alg».proof.Proof.Gen.Kernel.Skeleton
import proofs.«179515_j63196148793993_2_alg».proof.Proof.Gen.Kernel.Launch
import proofs.«179515_j63196148793993_2_alg».proof.Proof.Gen.Kernel.Points
import proofs.«179515_j63196148793993_2_alg».proof.Proof.Gen.Kernel.Frame
import proofs.«179515_j63196148793993_2_alg».proof.Proof.Gen.KernelIdeal
import proofs.«179515_j63196148793993_2_alg».proof.Proof.Gen.KernelIdeal.Skeleton
import proofs.«179515_j63196148793993_2_alg».proof.Proof.Gen.KernelIdeal.Launch
import proofs.«179515_j63196148793993_2_alg».proof.Proof.Gen.KernelIdeal.Points
import proofs.«179515_j63196148793993_2_alg».proof.Proof.Gen.KernelIdeal.Frame
import proofs.«179515_j63196148793993_2_alg».proof.Proof.Gen.ReferenceIdeal
import proofs.«179515_j63196148793993_2_alg».proof.Proof.Gen.ReferenceIdeal.Run
import proofs.«179515_j63196148793993_2_alg».proof.Proof.Gen.ReferenceIdeal.Read
import proofs.«179515_j63196148793993_2_alg».proof.Proof.Gen.Pre_finite_inputs
import proofs.«179515_j63196148793993_2_alg».proof.Proof.ResultArray
import proofs.«179515_j63196148793993_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does the kernel read over the extended reals. -/
theorem frame_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- From memories that agree on the five arguments, the kernel's result array and the reference's both end holding
    the specification of those arguments. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.result_eq,
    (hagree c).1, (hagree c).2.1, (hagree c).2.2.1, (hagree c).2.2.2.1, (hagree c).2.2.2.2]
  exact (Cert.KernelIdeal.Result.result_eq m c).symm

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
